-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x256 : Shape := ⟨3, ![4, 4096, 256]⟩
abbrev S4x4096x4096 : Shape := ⟨3, ![4, 4096, 4096]⟩
abbrev S256x128 : Shape := ⟨2, ![256, 128]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel
  bcast_S_S256x128 : S_.BroadcastsInDim S256x128 (![] : Fin 0 → Fin S256x128.rank)
  reducesTo_S256x128_S_d0_1 : S256x128.ReducesTo [0, 1] S_

variable [Facts]

def fn {F : FTy → Type} [FloatOps F] (main_arg0 : FVec F S4x4096x256 .f32) (main_arg1 : IVec S4x4096x4096 1) (main_arg2 : FVec F S256x128 .f32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  main_v8
-- ==== Kernel.lean ====
abbrev S4x4096x256 : Shape := ⟨3, ![4, 4096, 256]⟩
abbrev S4x4096x4096 : Shape := ⟨3, ![4, 4096, 4096]⟩
abbrev S256x128 : Shape := ⟨2, ![256, 128]⟩
abbrev S4x4096x128 : Shape := ⟨3, ![4, 4096, 128]⟩
abbrev S1x4096x256 : Shape := ⟨3, ![1, 4096, 256]⟩
abbrev S1x4096x128 : Shape := ⟨3, ![1, 4096, 128]⟩
abbrev S4096x128 : Shape := ⟨2, ![4096, 128]⟩
abbrev S1x4096 : Shape := ⟨2, ![1, 4096]⟩
abbrev S4096x1 : Shape := ⟨2, ![4096, 1]⟩
abbrev S4096x256 : Shape := ⟨2, ![4096, 256]⟩
abbrev S256x4096 : Shape := ⟨2, ![256, 4096]⟩
abbrev S256 : Shape := ⟨1, ![256]⟩
abbrev S256x1 : Shape := ⟨2, ![256, 1]⟩
abbrev S4096 : Shape := ⟨1, ![4096]⟩

abbrev nBuf : Space → Nat
  | .hbm => 4
  | .vmem => 9
  | .smem => 0
  | _ => 0

abbrev bufTy : (tb : Table) → Fin (tcTables nBuf tb) → BufTy
  | .hbm, ⟨0, _⟩ => ⟨S4x4096x256, .f32⟩
  | .hbm, ⟨1, _⟩ => ⟨S4x4096x4096, .i1⟩
  | .hbm, ⟨2, _⟩ => ⟨S256x128, .f32⟩
  | .hbm, ⟨3, _⟩ => ⟨S4x4096x128, .f32⟩
  | .local _ .vmem, ⟨0, _⟩ => ⟨S1x4096x256, .f32⟩
  | .local _ .vmem, ⟨1, _⟩ => ⟨S1x4096x256, .f32⟩
  | .local _ .vmem, ⟨2, _⟩ => ⟨S256x128, .f32⟩
  | .local _ .vmem, ⟨3, _⟩ => ⟨S1x4096x128, .f32⟩
  | .local _ .vmem, ⟨4, _⟩ => ⟨S1x4096x128, .f32⟩
  | .local _ .vmem, ⟨5, _⟩ => ⟨S4096x128, .f32⟩
  | .local _ .vmem, ⟨6, _⟩ => ⟨S4096x128, .bf16⟩
  | .local _ .vmem, ⟨7, _⟩ => ⟨S1x4096, .f32⟩
  | .local _ .vmem, ⟨8, _⟩ => ⟨S4096x1, .f32⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c16_i32 : BitVec 32 := 16#32
  let v18 : BitVec 32 := Scalar.addi c0_i32 c16_i32
  let c1_i32 : BitVec 32 := 1#32
  ⟨c0_i32, v18, c1_i32⟩
def k0_mult1 (k0_t1 : Fin k0_t1_loop.trips) : BitVec 32 :=
  let c0_i32_26 : BitVec 32 := 0#32
  let c0_i32 : BitVec 32 := 0#32
  let c1_i32 : BitVec 32 := 1#32
  let arg8 : BitVec 32 := Scf.iv c0_i32 c1_i32 k0_t1
  let c1_i32_25 : BitVec 32 := 1#32
  let v31 : BitVec 32 := Scalar.muli arg8 c1_i32_25
  let v32 : BitVec 32 := Scalar.addi c0_i32_26 v31
  let c256_i32 : BitVec 32 := 256#32
  let v33 : BitVec 32 := Scalar.muli v32 c256_i32
  v33
def k0_off1 (k0_t1 : Fin k0_t1_loop.trips) : Fin 2 → Nat :=
  let c0_i32_26 : BitVec 32 := 0#32
  let c0_i32 : BitVec 32 := 0#32
  let c1_i32 : BitVec 32 := 1#32
  let arg8 : BitVec 32 := Scf.iv c0_i32 c1_i32 k0_t1
  let c1_i32_25 : BitVec 32 := 1#32
  let v31 : BitVec 32 := Scalar.muli arg8 c1_i32_25
  let v32 : BitVec 32 := Scalar.addi c0_i32_26 v31
  let c256_i32 : BitVec 32 := 256#32
  let v33 : BitVec 32 := Scalar.muli v32 c256_i32
  let v34 : BitVec 32 := v33
  let v35 : Index := Scalar.indexCast v34
  let c0_27 : Index := 0#32
  ![v35.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  packedbf16_S4096x128_S4096x128_0_0 : (Rect.unit (s := S4096x128) ![0, 0] S4096x128.size inb_S4096x128_S4096x128_0_0).PackedRows (EltTy.packing .bf16)
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  reduces_S256x4096_S256 : S256x4096.Reduces [1] S256
  shapeCasts_S256_S256x1 : S256.ShapeCasts S256x1
  broadcasts_S256x1_S256x4096 : S256x1.Broadcasts S256x4096
  reduces_S256x4096_S4096 : S256x4096.Reduces [0] S4096
  shapeCasts_S4096_S1x4096 : S4096.ShapeCasts S1x4096
  transposes_S1x4096_p1_0_S4096x1 : S1x4096.Transposes [1, 0] S4096x1
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x128 : S4096x1.Broadcasts S4096x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  shapeCasts_S4096x128_S1x4096x128 : S4096x128.ShapeCasts S1x4096x128
  dot_S4096x256_S256x128_S4096x128_1_0_0_1_n_n_wf : DotDims.WF S4096x256 S256x128 S4096x128 [1] [0] [0] [1] [] []
  dot_S256x128_S4096x128_S256x4096_1_1_0_0_n_n_wf : DotDims.WF S256x128 S4096x128 S256x4096 [1] [1] [0] [0] [] []
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S256x128.size a ≤ S4096x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S4x4096x256.size a
  hwx0_0 : ∀ i : grid0.Coords, EltTy.bits .f32 = 32 ∨ (Rect.block (s := S4x4096x256) S1x4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x128.size a ≤ S4x4096x128.size a
  hwx0_2 : ∀ i : grid0.Coords, EltTy.bits .f32 = 32 ∨ (Rect.block (s := S4x4096x128) S1x4096x128.size (cc0_transform_2 i) (hinb0_2 i)).WholeWords (EltTy.packing .f32)

variable [Facts₀]

def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S256x128_S4096x128_S256x4096_1_1_0_0_n_n : DotDims S256x128 S4096x128 S256x4096 where
  lhsContracting := [1]
  rhsContracting := [1]
  lhsNonContracting := [0]
  rhsNonContracting := [0]
  lhsBatch := []
  rhsBatch := []
  wf := dot_S256x128_S4096x128_S256x4096_1_1_0_0_n_n_wf

abbrev win0_0 : Pipeline.Window sig grid0 :=
  Pipeline.Window.ofSpec (Memref.whole main_arg0) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x4096x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x256 : Shape := ⟨3, ![4, 4096, 256]⟩
abbrev S4x4096x4096 : Shape := ⟨3, ![4, 4096, 4096]⟩
abbrev S256x128 : Shape := ⟨2, ![256, 128]⟩
abbrev S4x4096x128 : Shape := ⟨3, ![4, 4096, 128]⟩
abbrev S_ : Shape := ⟨0, ![]⟩
abbrev S4x4096 : Shape := ⟨2, ![4, 4096]⟩
abbrev S4x1x4096 : Shape := ⟨3, ![4, 1, 4096]⟩
abbrev S4x4096x1 : Shape := ⟨3, ![4, 4096, 1]⟩

abbrev nBuf : Space → Nat
  | .hbm => 31
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S4x4096x4096, .i1⟩
  | .hbm, ⟨2, _⟩ => ⟨S256x128, .f32⟩
  | .hbm, ⟨3, _⟩ => ⟨S4x4096x128, .f32⟩
  | .hbm, ⟨4, _⟩ => ⟨S4x4096x4096, .f32⟩
  | .hbm, ⟨5, _⟩ => ⟨S_, .f32⟩
  | .hbm, ⟨6, _⟩ => ⟨S4x4096x4096, .f32⟩
  | .hbm, ⟨7, _⟩ => ⟨S4x4096x4096, .i1⟩
  | .hbm, ⟨8, _⟩ => ⟨S_, .f32⟩
  | .hbm, ⟨9, _⟩ => ⟨S4x4096x4096, .f32⟩
  | .hbm, ⟨10, _⟩ => ⟨S4x4096x4096, .f32⟩
  | .hbm, ⟨11, _⟩ => ⟨S4x4096x4096, .f32⟩
  | .hbm, ⟨12, _⟩ => ⟨S_, .f32⟩
  | .hbm, ⟨13, _⟩ => ⟨S4x4096, .f32⟩
  | .hbm, ⟨14, _⟩ => ⟨S_, .f32⟩
  | .hbm, ⟨15, _⟩ => ⟨S4x4096, .f32⟩
  | .hbm, ⟨16, _⟩ => ⟨S4x4096, .f32⟩
  | .hbm, ⟨17, _⟩ => ⟨S4x1x4096, .f32⟩
  | .hbm, ⟨18, _⟩ => ⟨S4x4096x4096, .f32⟩
  | .hbm, ⟨19, _⟩ => ⟨S4x4096x4096, .f32⟩
  | .hbm, ⟨20, _⟩ => ⟨S4x4096x4096, .f32⟩
  | .hbm, ⟨21, _⟩ => ⟨S_, .f32⟩
  | .hbm, ⟨22, _⟩ => ⟨S4x4096, .f32⟩
  | .hbm, ⟨23, _⟩ => ⟨S4x1x4096, .f32⟩
  | .hbm, ⟨24, _⟩ => ⟨S4x4096x4096, .f32⟩
  | .hbm, ⟨25, _⟩ => ⟨S4x4096x4096, .f32⟩
  | .hbm, ⟨26, _⟩ => ⟨S_, .f32⟩
  | .hbm, ⟨27, _⟩ => ⟨S4x4096, .f32⟩
  | .hbm, ⟨28, _⟩ => ⟨S4x4096x1, .f32⟩
  | .hbm, ⟨29, _⟩ => ⟨S4x4096x128, .f32⟩
  | .hbm, ⟨30, _⟩ => ⟨S4x4096x128, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  reducesTo_S4x4096x4096_S4x4096_d1 : S4x4096x4096.ReducesTo [1] S4x4096
  h_S_ : 0 < S_.numel
  bcast_S_S4x4096 : S_.BroadcastsInDim S4x4096 (![] : Fin 0 → Fin S4x4096.rank)
  bcast_S4x4096_S4x1x4096_0_2 : S4x4096.BroadcastsInDim S4x1x4096 (![0, 2] : Fin 2 → Fin S4x1x4096.rank)
  bcast_S4x1x4096_S4x4096x4096_0_1_2 : S4x1x4096.BroadcastsInDim S4x4096x4096 (![0, 1, 2] : Fin 3 → Fin S4x4096x4096.rank)
  reducesTo_S4x4096x4096_S4x4096_d2 : S4x4096x4096.ReducesTo [2] S4x4096
  bcast_S4x4096_S4x4096x1_0_1 : S4x4096.BroadcastsInDim S4x4096x1 (![0, 1] : Fin 2 → Fin S4x4096x1.rank)
  bcast_S4x4096x1_S4x4096x128_0_1_2 : S4x4096x1.BroadcastsInDim S4x4096x128 (![0, 1, 2] : Fin 3 → Fin S4x4096x128.rank)
  dot_S4x4096x256_S256x128_S4x4096x128_2_0_01_1_n_n_wf : DotDims.WF S4x4096x256 S256x128 S4x4096x128 [2] [0] [0, 1] [1] [] []
  dot_S4x4096x128_S4x4096x128_S4x4096x4096_2_2_1_1_0_0_wf : DotDims.WF S4x4096x128 S4x4096x128 S4x4096x4096 [2] [2] [1] [1] [0] [0]

variable [Facts₀]

def dot_S4x4096x256_S256x128_S4x4096x128_2_0_01_1_n_n : DotDims S4x4096x256 S256x128 S4x4096x128 where
  lhsContracting := [2]
  rhsContracting := [0]
  lhsNonContracting := [0, 1]
  rhsNonContracting := [1]
  lhsBatch := []
  rhsBatch := []
  wf := dot_S4x4096x256_S256x128_S4x4096x128_2_0_01_1_n_n_wf
def dot_S4x4096x128_S4x4096x128_S4x4096x4096_2_2_1_1_0_0 : DotDims S4x4096x128 S4x4096x128 S4x4096x4096 where
  lhsContracting := [2]
  rhsContracting := [2]
  lhsNonContracting := [1]
  rhsNonContracting := [1]
  lhsBatch := [0]
  rhsBatch := [0]
  wf := dot_S4x4096x128_S4x4096x128_S4x4096x4096_2_2_1_1_0_0_wf

class Facts : Prop extends Facts₀ where

variable [Facts]
-- ==== Proof.Spec.lean ====
/-
  The specification: the result as ONE function of the argument arrays, index by index, on the extended reals.

  For a batch `b` write `hp n d = ∑_f h[b,n,f] · W[f,d]` for the projected features.  The score of rows `m` and `n` is
  the LeakyReLU of their inner product, `s m n = lrelu (∑_d hp m d · hp n d)`; it is SYMMETRIC, `s m n = s n m`, because
  the products commute under the sum.  The softmax of row `m` is `p m n = exp (s m n − max_k s m k) / ∑_k exp (s m k − max_k' s m k')`,
  and the mass of column `n` is `∑_m p m n`.  The result is `hp n d · mass n`.

  A softmax taken down the columns of a symmetric matrix and summed along the rows is the same number: the entry it
  puts at `(n, m)` is `p m n`.  That is the only law the two programs differ by, beyond the order of their sums.
-/
import Idealize.ShloMosaic.PureOps.Ideal
import Idealize.ShloMosaic.Lib.ValueIdx
import Mathlib.Data.Finset.Fold

noncomputable section

namespace Cert.Spec

open Idealize.ShloMosaic Idealize.ShloMosaic.ValueIdx

/-- LeakyReLU as both programs spell it: `x` where `x ≥ 0`, else the slope's literal times `x`. -/
def lrelu (x : EReal) : EReal :=
  Scalar.select (Ideal.cmp .oge x (Ideal.ofBits .f32 0x00000000#32)) x (Ideal.ofBits .f32 0x3E4CCCCD#32 * x)

/-- The value both maxima start from (the pattern of −∞; never evaluated). -/
def start : EReal := Ideal.ofBits .f32 0xFF800000#32

/-- The projected features of batch `b`: row `n` of `h[b]` times column `d` of `W`. -/
def feat (H : FVec Ideal ⟨3, ![4, 4096, 256]⟩ .f32) (W : FVec Ideal ⟨2, ![256, 128]⟩ .f32)
    (b : Fin 4) (n : Fin 4096) (d : Fin 128) : EReal :=
  ∑ f : Fin 256, H (ix3 b n f) * W (ix2 f d)

/-- The score of two rows of a feature matrix. -/
def score (hp : Fin 4096 → Fin 128 → EReal) (m n : Fin 4096) : EReal :=
  lrelu (∑ d : Fin 128, hp m d * hp n d)

/-- The score matrix is symmetric. -/
theorem score_symm (hp : Fin 4096 → Fin 128 → EReal) (m n : Fin 4096) : score hp m n = score hp n m := by
  unfold score
  exact congrArg lrelu (Finset.sum_congr rfl fun d _ => mul_comm _ _)

/-- The maximum of row `m` of a matrix, from the start value. -/
def rowMax (s : Fin 4096 → Fin 4096 → EReal) (m : Fin 4096) : EReal :=
  (Finset.univ : Finset (Fin 4096)).fold max start (fun k => s m k)

/-- The unnormalised softmax weight at `(m, n)`. -/
def expo (s : Fin 4096 → Fin 4096 → EReal) (m n : Fin 4096) : EReal :=
  Ideal.exp (s m n - rowMax s m)

/-- The softmax of row `m` at column `n`. -/
def prob (s : Fin 4096 → Fin 4096 → EReal) (m n : Fin 4096) : EReal :=
  Ideal.div (expo s m n) (∑ k : Fin 4096, expo s m k)

/-- The mass of column `n`: the sum down the column of the row softmaxes. -/
def mass (s : Fin 4096 → Fin 4096 → EReal) (n : Fin 4096) : EReal :=
  ∑ m : Fin 4096, prob s m n

/-- The result: the features scaled, row by row, by the column masses of their own score matrix. -/
def G (H : FVec Ideal ⟨3, ![4, 4096, 256]⟩ .f32) (W : FVec Ideal ⟨2, ![256, 128]⟩ .f32) :
    FVec Ideal ⟨3, ![4, 4096, 128]⟩ .f32 :=
  fun i => feat H W (i 0) (i 1) (i 2) * mass (score (feat H W (i 0))) (i 1)

theorem G_apply (H : FVec Ideal ⟨3, ![4, 4096, 256]⟩ .f32) (W : FVec Ideal ⟨2, ![256, 128]⟩ .f32)
    (b : Fin 4) (n : Fin 4096) (d : Fin 128) :
    G H W (ix3 b n d) = feat H W b n d * mass (score (feat H W b)) n := rfl

/-- A maximum with the start of a fold that started from the start is the fold. -/
theorem max_start_fold {ι : Type} (s : Finset ι) (f : ι → EReal) :
    max start (s.fold max start f) = s.fold max start f :=
  max_eq_right ((Finset.le_fold_max start).mpr (Or.inl le_rfl))

end Cert.Spec

end
-- ==== Proof.RunValue.lean ====
/-
  What one grid point's body leaves in the output block, as one term over the two input blocks.

  The body first forms the projected features `hp = x · W` (kept twice: once as is, once for the score products), zeroes
  a row accumulator, then walks the 4096 rows in 16 runs of 256: each trip adds to the accumulator the column sums of
  the row-softmax of that run's scores.  At the end the accumulator, turned into a column, scales `hp` row by row.
  Here the trips are folded into a recursion `acc`: the accumulator after `k` trips.
-/
import proofs.«122817_j7713761263781_2_alg».proof.Proof.Gen.KernelIdeal.Frame
import Idealize.ShloMosaic.Lib.Pipeline.Value

set_option maxRecDepth 16384

noncomputable section

namespace Cert.KernelIdeal.RunValue

open Cert.KernelIdeal Cert.KernelIdeal.Gen Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The last store through the whole-shape rectangle is what the buffer reads afterwards, whatever was written before. -/
theorem read_writes_cons_whole {Val : EltTy → Type} {sig : RefSig} {κ : Kind} {sp : Space} {S : Shape} {e : EltTy}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rwa [Rect.emb_whole_apply] at e

/-- The 256 rows of the stored features that trip `k` takes as its score rows. -/
def rowsOf (hb : Vec F S4096x128 .bf16) (k : Fin k0_t1_loop.trips) : Vec F S256x128 .bf16 :=
  View.ld hb (Rect.unit (s := S4096x128) (k0_off1 k) S256x128.size (k0_off1_inb k))

/-- The row accumulator after `k` trips: zero, then one trip's column sums added per trip. -/
def acc (hb : Vec F S4096x128 .bf16) : ℕ → Vec F S1x4096 .f32
  | 0 => k0_pay4
  | k + 1 => if h : k < k0_t1_loop.trips then k0_pay5 (rowsOf hb ⟨k, h⟩) hb (acc hb k) else acc hb k

theorem acc_succ (hb : Vec F S4096x128 .bf16) (k : Fin k0_t1_loop.trips) :
    acc hb (k.val + 1) = k0_pay5 (rowsOf hb k) hb (acc hb k.val) := by
  rw [acc]; exact dif_pos k.isLt

/-- One trip stores, over the whole accumulator, its payload of the rows it reads, the stored features and the accumulator it finds. -/
theorem trip_eq (𝒱 : Variants) (bd : Option 𝒱.V) (c : Dev nD) (i : grid0.Coords) (arg1 : Memref sig .tc .vmem S1x4096x256 .f32) (harg1 : arg1.IsWhole) (arg2 : Memref sig .tc .vmem S256x128 .f32) (harg2 : arg2.IsWhole) (arg3 : Memref sig .tc .vmem S1x4096x128 .f32) (harg3 : arg3.IsWhole) (arg4 : Memref sig .tc .vmem S4096x128 .f32) (harg4 : arg4.IsWhole) (arg5 : Memref sig .tc .vmem S4096x128 .bf16) (harg5 : arg5.IsWhole) (arg6 : Memref sig .tc .vmem S1x4096 .f32) (harg6 : arg6.IsWhole) (arg7 : Memref sig .tc .vmem S4096x1 .f32) (harg7 : arg7.IsWhole)
    (X : BufTy.Contents (Elt F) arg5.view.ty) (k : Fin k0_t1_loop.trips) (f : BufTy.Contents (Elt F) arg6.view.ty) :
    tripL_k0_t1 (F := F) 𝒱 c bd i arg1 harg1 arg2 harg2 arg3 harg3 arg4 harg4 arg5 harg5 arg6 harg6 arg7 harg7 X k f
      = [⟨Rect.unit (s := S1x4096) ![0, 0] S1x4096.size inb_S1x4096_S1x4096_0_0,
          k0_pay5 (rowsOf (arg5.view.read (Elt F) X) k) (arg5.view.read (Elt F) X) (arg6.view.read (Elt F) f)⟩] := by
  unfold tripL_k0_t1
  unfold trip_k0_t1
  dsimp only
  sl_unfold_words
  simp only [View.readAt_eq_ld, View.ld_unit_zero (S := S4096x128) hz2, View.ld_unit_zero (S := S1x4096) hz2]
  rfl

/-- Reading the accumulator after the trips before `k`, started from contents that read as the zero fill. -/
theorem loop_read (𝒱 : Variants) (bd : Option 𝒱.V) (c : Dev nD) (i : grid0.Coords) (arg1 : Memref sig .tc .vmem S1x4096x256 .f32) (harg1 : arg1.IsWhole) (arg2 : Memref sig .tc .vmem S256x128 .f32) (harg2 : arg2.IsWhole) (arg3 : Memref sig .tc .vmem S1x4096x128 .f32) (harg3 : arg3.IsWhole) (arg4 : Memref sig .tc .vmem S4096x128 .f32) (harg4 : arg4.IsWhole) (arg5 : Memref sig .tc .vmem S4096x128 .bf16) (harg5 : arg5.IsWhole) (arg6 : Memref sig .tc .vmem S1x4096 .f32) (harg6 : arg6.IsWhole) (arg7 : Memref sig .tc .vmem S4096x1 .f32) (harg7 : arg7.IsWhole)
    (X : BufTy.Contents (Elt F) arg5.view.ty) (G : BufTy.Contents (Elt F) arg6.view.ty)
    (hG : arg6.view.read (Elt F) G = k0_pay4) :
    ∀ k : ℕ, k ≤ k0_t1_loop.trips →
      arg6.view.read (Elt F) (arg6.view.writes (Elt F) G (pb_k0_t1 (F := F) 𝒱 c bd i arg1 harg1 arg2 harg2 arg3 harg3 arg4 harg4 arg5 harg5 arg6 harg6 arg7 harg7 X G k))
        = acc (arg5.view.read (Elt F) X) k
  | 0, _ => by rw [pb_k0_t1, View.writes_nil, hG, acc]
  | k + 1, hk => by
    have ih := loop_read 𝒱 bd c i arg1 harg1 arg2 harg2 arg3 harg3 arg4 harg4 arg5 harg5 arg6 harg6 arg7 harg7 X G hG k (Nat.le_of_succ_le hk)
    rw [pb_k0_t1_succ (F := F) 𝒱 c bd i arg1 harg1 arg2 harg2 arg3 harg3 arg4 harg4 arg5 harg5 arg6 harg6 arg7 harg7 X G ⟨k, hk⟩, View.writes_append, trip_eq]
    rw [read_writes_cons_whole _ _ hz2, acc_succ _ ⟨k, hk⟩]
    dsimp only
    rw [ih]

theorem trips_eq : k0_t1_loop.trips = 16 := by decide +kernel

/-- What the body leaves in the output block: the features times the column the accumulator ends as. -/
theorem out_eq (c : Dev nD) (i : grid0.Coords) (arg1 : Memref sig .tc .vmem S1x4096x256 .f32) (harg1 : arg1.IsWhole) (arg2 : Memref sig .tc .vmem S256x128 .f32) (harg2 : arg2.IsWhole) (arg3 : Memref sig .tc .vmem S1x4096x128 .f32) (harg3 : arg3.IsWhole) (arg4 : Memref sig .tc .vmem S4096x128 .f32) (harg4 : arg4.IsWhole) (arg5 : Memref sig .tc .vmem S4096x128 .bf16) (harg5 : arg5.IsWhole) (arg6 : Memref sig .tc .vmem S1x4096 .f32) (harg6 : arg6.IsWhole) (arg7 : Memref sig .tc .vmem S4096x1 .f32) (harg7 : arg7.IsWhole)
    (x0 : Vec F S1x4096x256 .f32) (x1 : Vec F S256x128 .f32) :
    out0_A_2 c i arg1 harg1 arg2 harg2 arg3 harg3 arg4 harg4 arg5 harg5 arg6 harg6 arg7 harg7 x0 x1
      = k0_pay1 (k0_pay2 x0 x1) (k0_pay7 (k0_pay6 (acc (k0_pay3 (k0_pay2 x0 x1)) k0_t1_loop.trips))) := by
  unfold out0_A_2
  rw [View.read_writes_eq_canon _ _ _ (cover0_A_2 c i arg1 harg1 arg2 harg2 arg3 harg3 arg4 harg4 arg5 harg5 arg6 harg6 arg7 harg7 x0 x1)]
  unfold kernelRun0_A
  dsimp only
  sl_unfold_words
  rw [View.canon_unit_zero hz3]
  simp only [View.readCov_unit_zero (S := S4096x128) _ hz2, View.readCov_unit_zero (S := S4096x1) _ hz2,
    View.readAt_eq_ld, harg1.read_unread, harg2.read_unread,
    View.ld_unit_zero (S := S1x4096x256) hz3, View.ld_unit_zero (S := S256x128) hz2, View.ld_unit_zero (S := S1x4096) hz2]
  rw [View.writes_append]
  have hG : arg6.view.read (Elt F) (arg6.view.writes (Elt F) arg6.view.junk
      [(⟨Rect.unit (s := S1x4096) ![0, 0] S1x4096.size inb_S1x4096_S1x4096_0_0, k0_pay4⟩ : View.Piece (Elt F) S1x4096 .f32)]) = k0_pay4 :=
    read_writes_cons_whole _ _ hz2 _ _ _
  have hl := loop_read (F := F) Variants.none none c i arg1 harg1 arg2 harg2 arg3 harg3 arg4 harg4 arg5 harg5 arg6 harg6 arg7 harg7
    (arg5.view.writes (Elt F) arg5.view.junk
      [(⟨Rect.unit (s := S4096x128) ![0, 0] S4096x128.size inb_S4096x128_S4096x128_0_0, k0_pay3 (k0_pay2 x0 x1)⟩ : View.Piece (Elt F) S4096x128 .bf16)])
    _ hG k0_t1_loop.trips (Nat.le_refl _)
  rw [read_writes_cons_whole _ _ hz2] at hl
  exact congrArg (fun a => k0_pay1 (k0_pay2 x0 x1) (k0_pay7 (k0_pay6 a))) hl

end Cert.KernelIdeal.RunValue

end
-- ==== Proof.LibRowOps.lean ====
/-
  Two reductions of matrices read at an index, on the extended reals.

  * The sum of an `[a, b]` array along its second axis, read at entry `p`, is the sum over `k` of the array's
    entries `(p, k)`: the sum of row `p`.
  * The product of an `[m, k]` matrix with a `[k, n]` matrix, added into a zero accumulator, read at `(p, c)`, is the
    sum over `x` of the left matrix at `(p, x)` times the right matrix at `(x, c)`.  The dimension numbers enter only
    through the four facts that say which operand coordinate is the row, the column and the contracted one.
-/
import Idealize.ShloMosaic.Lib.Pipeline.Value
import Idealize.ShloMosaic.Lib.ValueIdx
import Idealize.ShloMosaic.PureOps.Ideal.Laws

noncomputable section

namespace Cert.LibRowOps

open Idealize.ShloMosaic Idealize.ShloMosaic.ValueIdx

/-- A sum along the second axis of an `[a, b]` array, read at entry `p`: the sum of row `p`. -/
theorem rowSum_apply {a b : ℕ} (src : FVec Ideal ⟨2, ![a, b]⟩ .f32)
    (h : (⟨2, ![a, b]⟩ : Shape).Reduces [(1 : Fin 2)] ⟨1, ![a]⟩) (hφ : FKind.Formats .f32)
    (hacc : (0x00000000#32 : BitVec 32) = FKind.add.neutral .f32 hφ) (p : Fin a) :
    multiReduction .add [(1 : Fin 2)] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun c => Fin.ext (by
      match c with
      | ⟨0, _⟩ => rfl
      | ⟨1, _⟩ => rfl)))

/-- A matrix product into a zero accumulator, read at `(p, c)`: the sum over the contracted coordinate `x` of the left
    operand at `(p, x)` times the right operand at `(x, c)`. -/
theorem matmul_zero_apply {m k n : ℕ} {φ₁ φ₂ : FTy}
    (d : DotDims ⟨2, ![m, k]⟩ ⟨2, ![k, n]⟩ ⟨2, ![m, n]⟩) (prec : Option ContractPrecision)
    (lhs : FVec Ideal ⟨2, ![m, k]⟩ φ₁) (rhs : FVec Ideal ⟨2, ![k, n]⟩ φ₂)
    (hr : d.contr.rank = 1) (hs : d.contr.size ⟨0, by omega⟩ = k)
    (hl0 : ∀ (j : (⟨2, ![m, n]⟩ : Shape).Idx) (q : d.contr.Idx), (d.lhsIdx j q 0).val = (j 0).val)
    (hl1 : ∀ (j : (⟨2, ![m, n]⟩ : Shape).Idx) (q : d.contr.Idx), (d.lhsIdx j q 1).val = (q ⟨0, by omega⟩).val)
    (hr0 : ∀ (j : (⟨2, ![m, n]⟩ : Shape).Idx) (q : d.contr.Idx), (d.rhsIdx j q 0).val = (q ⟨0, by omega⟩).val)
    (hr1 : ∀ (j : (⟨2, ![m, n]⟩ : Shape).Idx) (q : d.contr.Idx), (d.rhsIdx j q 1).val = (j 1).val)
    (p : Fin m) (c : Fin n) :
    FloatOps.matmul d prec lhs rhs (constant ⟨2, ![m, n]⟩ .f32 0x00000000#32) (ix2 p c)
      = ∑ x : Fin k, lhs (ix2 p x) * rhs (ix2 x c) := by
  rw [Ideal.matmul_constant_zero_apply, ← Equiv.sum_comp (contrEquiv1 d k hr hs).symm]
  refine Finset.sum_congr rfl fun x _ => ?_
  have hk := contrEquiv1_symm_val d k hr hs x
  have el : d.lhsIdx (ix2 p c) ((contrEquiv1 d k hr hs).symm x) = ix2 p x := funext fun a => Fin.ext (by
    match a with
    | ⟨0, _⟩ => exact hl0 _ _
    | ⟨1, _⟩ => exact (hl1 _ _).trans hk)
  have er : d.rhsIdx (ix2 p c) ((contrEquiv1 d k hr hs).symm x) = ix2 x c := funext fun a => Fin.ext (by
    match a with
    | ⟨0, _⟩ => exact (hr0 _ _).trans hk
    | ⟨1, _⟩ => exact hr1 _ _)
  rw [el, er]

end Cert.LibRowOps

end
-- ==== Proof.LibColumn.lean ====
/-
  A column broadcast over many columns, read at an index: an `[a, 1]` array broadcast to `[a, b]` reads, at
  `(p, c)`, the column's entry of row `p`.
-/
import Idealize.ShloMosaic.Lib.Pipeline.Value
import Idealize.ShloMosaic.Lib.ValueIdx

namespace Cert.LibColumn

open Idealize.ShloMosaic Idealize.ShloMosaic.ValueIdx

variable {α : Type}

/-- An `[a, 1]` array broadcast to `[a, b]` reads, at `(p, c)`, the operand at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibUnitAxis.lean ====
/-
  A leading axis of extent one, at rank three.

  A [1, a, b] block viewed as an [a, b] array reads `(p, k)` at the block's entry `(0, p, k)`, and an [a, b] array
  viewed as a [1, a, b] block reads `(z, p, q)` at the array's entry `(p, q)`: the two reshapes every block of a
  rank-3 array cut one slab at a time goes through.  Stated at coordinates, for any element type.
-/
import Idealize.ShloMosaic.Lib.Pipeline.Value
import Idealize.ShloMosaic.Lib.ValueIdx

noncomputable section

namespace Cert.LibUnitAxis

open Idealize.ShloMosaic Idealize.ShloMosaic.ValueIdx

/-- A [1, a, b] block viewed as [a, b] reads `(p, k)` at `(0, p, k)`. -/
theorem dropUnit_apply {α : Type} {a b : ℕ} (v : (⟨3, ![1, a, b]⟩ : Shape).Idx → α)
    (h : (⟨3, ![1, a, b]⟩ : Shape).ShapeCasts ⟨2, ![a, b]⟩) (p : Fin a) (k : Fin b) :
    shapeCast ⟨2, ![a, b]⟩ v h (ix2 p k) = v (ix3 0 p k) :=
  (shapeCast_dropUnit_apply ![a, b] v h (ix2 p k)).trans (congrArg v (funext fun d => by
    match d with
    | ⟨0, _⟩ => rfl
    | ⟨1, _⟩ => rfl
    | ⟨2, _⟩ => rfl))

/-- An [a, b] array viewed as a [1, a, b] block reads `(z, p, q)` at `(p, q)`. -/
theorem addUnit_apply {α : Type} {a b : ℕ} (v : (⟨2, ![a, b]⟩ : Shape).Idx → α)
    (h : (⟨2, ![a, b]⟩ : Shape).ShapeCasts ⟨3, ![1, a, b]⟩) (z : Fin 1) (p : Fin a) (q : Fin b) :
    shapeCast ⟨3, ![1, a, b]⟩ v h (ix3 z p q) = v (ix2 p q) :=
  (shapeCast_addUnit_apply ![a, b] v h (ix3 z p q)).trans (congrArg v (funext fun d => by
    match d with
    | ⟨0, _⟩ => rfl
    | ⟨1, _⟩ => rfl))

end Cert.LibUnitAxis

end
-- ==== Proof.Payloads.lean ====
/-
  The body's simple payloads at the extended reals, read at an index.

  `k0_pay2` is the feature product `x · W` (the block's leading unit axis dropped, the format changes the identity);
  `k0_pay3` keeps it unchanged; `k0_pay4` is the zero row; `k0_pay6` turns the accumulator row into a column;
  `k0_pay7` spreads that column over the 128 feature lanes; `k0_pay1` multiplies the features by it and puts the unit
  axis back.  The rows trip `k` scores are rows `256·k … 256·k + 255` of the stored features.
-/
import proofs.«122817_j7713761263781_2_alg».proof.Proof.RunValue
import proofs.«122817_j7713761263781_2_alg».proof.Proof.LibRowOps
import proofs.«122817_j7713761263781_2_alg».proof.Proof.LibColumn
import proofs.«122817_j7713761263781_2_alg».proof.Proof.LibUnitAxis
import Idealize.ShloMosaic.Lib.ValueIdx
import Idealize.ShloMosaic.Lib.ValueLayout
import Idealize.ShloMosaic.PureOps.Ideal.Laws

noncomputable section

namespace Cert.KernelIdeal.Payloads

open Cert.KernelIdeal Cert.KernelIdeal.Gen Idealize.ShloMosaic Idealize.ShloMosaic.ValueIdx

local notation "dotF" => dot_S4096x256_S256x128_S4096x128_1_0_0_1_n_n

theorem dotF_l0 (j : S4096x128.Idx) (q : DotDims.contr dotF |>.Idx) : (DotDims.lhsIdx dotF j q 0).val = (j 0).val := by
  unfold DotDims.lhsIdx
  rw [dif_neg (show ¬(0 : Fin S4096x256.rank) ∈ DotDims.lhsBatch dotF by decide),
    dif_pos (show (0 : Fin S4096x256.rank) ∈ DotDims.lhsNonContracting dotF by decide)]
  rfl
theorem dotF_l1 (j : S4096x128.Idx) (q : DotDims.contr dotF |>.Idx) :
    (DotDims.lhsIdx dotF j q 1).val = (q ⟨0, by decide⟩).val :=
  DotDims.lhsIdx_val_of_single dotF rfl j q
theorem dotF_r0 (j : S4096x128.Idx) (q : DotDims.contr dotF |>.Idx) :
    (DotDims.rhsIdx dotF j q 0).val = (q ⟨0, by decide⟩).val :=
  DotDims.rhsIdx_val_of_single dotF rfl j q
theorem dotF_r1 (j : S4096x128.Idx) (q : DotDims.contr dotF |>.Idx) : (DotDims.rhsIdx dotF j q 1).val = (j 1).val := by
  unfold DotDims.rhsIdx
  rw [dif_neg (show ¬(1 : Fin S256x128.rank) ∈ DotDims.rhsBatch dotF by decide),
    dif_pos (show (1 : Fin S256x128.rank) ∈ DotDims.rhsNonContracting dotF by decide)]
  rfl

/-- The features: row `n` of the block times column `d` of the weights. -/
theorem pay2_apply (x0 : Vec Ideal S1x4096x256 .f32) (x1 : Vec Ideal S256x128 .f32) (n : Fin 4096) (d : Fin 128) :
    k0_pay2 (F := Ideal) x0 x1 (ix2 n d) = ∑ f : Fin 256, x0 (ix3 0 n f) * x1 (ix2 f d) := by
  unfold k0_pay2
  rw [shapeCast_self]
  refine (Cert.LibRowOps.matmul_zero_apply dotF none _ _ rfl rfl dotF_l0 dotF_l1 dotF_r0 dotF_r1 n d).trans ?_
  refine Finset.sum_congr rfl fun f _ => ?_
  rw [truncf_apply, truncf_apply, Cert.LibUnitAxis.dropUnit_apply]

/-- Stored for the score products, the features are unchanged. -/
theorem pay3_apply (v : Vec Ideal S4096x128 .f32) (i : S4096x128.Idx) : k0_pay3 (F := Ideal) v i = v i := by
  unfold k0_pay3
  rw [shapeCast_self]
  rfl

/-- The accumulator starts at zero. -/
theorem pay4_apply (i : S1x4096.Idx) : k0_pay4 (F := Ideal) i = 0 := by
  unfold k0_pay4
  rw [shapeCast_self]
  exact Ideal.ofBits_zero_f32

/-- The accumulator row as a column. -/
theorem pay6_apply (v : Vec Ideal S1x4096 .f32) (n : Fin 4096) (u : Fin 1) :
    k0_pay6 (F := Ideal) v (ix2 n u) = v (ix2 u n) := by
  unfold k0_pay6
  rw [shapeCast_self]
  exact transpose_ix2_apply v _ n u

/-- The column spread over the feature lanes. -/
theorem pay7_apply (v : Vec Ideal S4096x1 .f32) (n : Fin 4096) (d : Fin 128) :
    k0_pay7 (F := Ideal) v (ix2 n d) = v (ix2 n (0 : Fin 1)) := by
  unfold k0_pay7
  exact Cert.LibColumn.broadcastTo_a1_ab_apply v _ n d

/-- The output block: features times the spread column, under a leading unit axis. -/
theorem pay1_apply (a : Vec Ideal S4096x128 .f32) (b : FVec Ideal S4096x128 .f32) (z : Fin 1) (n : Fin 4096) (d : Fin 128) :
    k0_pay1 (F := Ideal) a b (ix3 z n d) = a (ix2 n d) * b (ix2 n d) := by
  unfold k0_pay1
  rw [Cert.LibUnitAxis.addUnit_apply]
  rfl

/-- Trip `k` scores rows `256·k + r` of the stored features. -/
theorem rowsOf_apply (hb : Vec Ideal S4096x128 .bf16) (k : Fin k0_t1_loop.trips) (r : Fin 256) (d : Fin 128)
    (h : 256 * k.val + r.val < 4096) :
    Cert.KernelIdeal.RunValue.rowsOf (F := Ideal) hb k (ix2 r d) = hb (ix2 ⟨256 * k.val + r.val, h⟩ d) := by
  unfold Cert.KernelIdeal.RunValue.rowsOf
  show hb _ = hb _
  refine congrArg hb (funext fun a => Fin.ext ?_)
  have e := k0_off1_eq k
  match a with
  | ⟨0, _⟩ =>
    show k0_off1 k 0 + 1 * r.val = 256 * k.val + r.val
    rw [e]; show 256 * k.val + 1 * r.val = _; omega
  | ⟨1, _⟩ =>
    show k0_off1 k 1 + 1 * d.val = d.val
    rw [e]; show 0 + 1 * d.val = _; omega

end Cert.KernelIdeal.Payloads

end
-- ==== Proof.LibMatmulNT.lean ====
/-
  A matrix product with the right operand contracted on its LAST axis, read at an index, on the extended reals.

  The product of an `[m, k]` matrix with an `[n, k]` matrix (the right operand transposed: `A · Bᵀ`), added into a
  zero accumulator, read at `(p, c)`, is the sum over `x` of the left matrix at `(p, x)` times the right matrix at
  `(c, x)`.  The dimension numbers enter only through the four facts that say which operand coordinate is the row,
  the column and the contracted one.
-/
import Idealize.ShloMosaic.Lib.Pipeline.Value
import Idealize.ShloMosaic.Lib.ValueIdx
import Idealize.ShloMosaic.PureOps.Ideal.Laws

noncomputable section

namespace Cert.LibMatmulNT

open Idealize.ShloMosaic Idealize.ShloMosaic.ValueIdx

/-- `A · Bᵀ` into a zero accumulator, read at `(p, c)`: the sum over the contracted coordinate `x` of the left
    operand at `(p, x)` times the right operand at `(c, x)`. -/
theorem matmul_nt_zero_apply {m k n : ℕ} {φ₁ φ₂ : FTy}
    (d : DotDims ⟨2, ![m, k]⟩ ⟨2, ![n, k]⟩ ⟨2, ![m, n]⟩) (prec : Option ContractPrecision)
    (lhs : FVec Ideal ⟨2, ![m, k]⟩ φ₁) (rhs : FVec Ideal ⟨2, ![n, k]⟩ φ₂)
    (hr : d.contr.rank = 1) (hs : d.contr.size ⟨0, by omega⟩ = k)
    (hl0 : ∀ (j : (⟨2, ![m, n]⟩ : Shape).Idx) (q : d.contr.Idx), (d.lhsIdx j q 0).val = (j 0).val)
    (hl1 : ∀ (j : (⟨2, ![m, n]⟩ : Shape).Idx) (q : d.contr.Idx), (d.lhsIdx j q 1).val = (q ⟨0, by omega⟩).val)
    (hr0 : ∀ (j : (⟨2, ![m, n]⟩ : Shape).Idx) (q : d.contr.Idx), (d.rhsIdx j q 0).val = (j 1).val)
    (hr1 : ∀ (j : (⟨2, ![m, n]⟩ : Shape).Idx) (q : d.contr.Idx), (d.rhsIdx j q 1).val = (q ⟨0, by omega⟩).val)
    (p : Fin m) (c : Fin n) :
    FloatOps.matmul d prec lhs rhs (constant ⟨2, ![m, n]⟩ .f32 0x00000000#32) (ix2 p c)
      = ∑ x : Fin k, lhs (ix2 p x) * rhs (ix2 c x) := by
  rw [Ideal.matmul_constant_zero_apply, ← Equiv.sum_comp (contrEquiv1 d k hr hs).symm]
  refine Finset.sum_congr rfl fun x _ => ?_
  have hk := contrEquiv1_symm_val d k hr hs x
  have el : d.lhsIdx (ix2 p c) ((contrEquiv1 d k hr hs).symm x) = ix2 p x := funext fun a => Fin.ext (by
    match a with
    | ⟨0, _⟩ => exact hl0 _ _
    | ⟨1, _⟩ => exact (hl1 _ _).trans hk)
  have er : d.rhsIdx (ix2 p c) ((contrEquiv1 d k hr hs).symm x) = ix2 c x := funext fun a => Fin.ext (by
    match a with
    | ⟨0, _⟩ => exact hr0 _ _
    | ⟨1, _⟩ => exact (hr1 _ _).trans hk)
  rw [el, er]

end Cert.LibMatmulNT

end
-- ==== Proof.LibRowMax.lean ====
/-
  The maximum of an `[a, b]` array along its second axis, read at an index, on the extended reals: at entry `p` it is
  the fold of `max`, from the accumulator's value, over the entries `(p, k)` of row `p`.
-/
import Idealize.ShloMosaic.Lib.Pipeline.Value
import Idealize.ShloMosaic.Lib.ValueIdx
import Idealize.ShloMosaic.PureOps.Ideal.Laws

noncomputable section

namespace Cert.LibRowMax

open Idealize.ShloMosaic Idealize.ShloMosaic.ValueIdx

/-- A maximum along the second axis of an `[a, b]` array, read at entry `p`: the fold of `max` over row `p`, from
    what the accumulator's pattern denotes. -/
theorem rowMax_apply {a b : ℕ} (src : FVec Ideal ⟨2, ![a, b]⟩ .f32) (acc : BitVec 32)
    (h : (⟨2, ![a, b]⟩ : Shape).Reduces [(1 : Fin 2)] ⟨1, ![a]⟩) (hφ : FKind.Formats .f32)
    (hacc : acc = FKind.maximumf.neutral .f32 hφ) (p : Fin a) :
    multiReduction .maximumf [(1 : Fin 2)] ⟨1, ![a]⟩ src acc h hφ hacc (ix1 p)
      = (Finset.univ : Finset (Fin b)).fold max (Ideal.ofBits .f32 acc) (fun k => src (ix2 p k)) :=
  (Ideal.multiReduction_maximumf_single src acc h hφ hacc (ix1 p)).trans
    (Finset.fold_congr fun k _ => congrArg src (funext fun c => Fin.ext (by
      match c with
      | ⟨0, _⟩ => rfl
      | ⟨1, _⟩ => rfl)))

end Cert.LibRowMax

end
-- ==== Proof.LibUnitColumn.lean ====
/-
  A vector cast to a column, read at an index: an `[a]` array cast to `[a, 1]` reads, at `(i, u)`, the vector's
  entry `i`, whatever the unit coordinate `u`.
-/
import Idealize.ShloMosaic.Lib.Pipeline.Value
import Idealize.ShloMosaic.Lib.ValueIdx

namespace Cert.LibUnitColumn

open Idealize.ShloMosaic Idealize.ShloMosaic.ValueIdx

variable {α : Type}

/-- An `[a]` array cast to `[a, 1]` reads, at `(i, u)`, the operand at `i`: both indices have the row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibUnitColumn
-- ==== Proof.LibUnitRow.lean ====
/-
  A vector laid out as a one-row matrix, read at an index.

  A `[a]` vector cast to a `[1, a]` array (a reshape that adds a leading unit axis) read at `(u, j)` is the vector's
  entry `j`: both positions are the `j`-th in row-major order, the row coordinate `u` of the unit axis being 0.
-/
import Idealize.ShloMosaic.Lib.Pipeline.Value
import Idealize.ShloMosaic.Lib.ValueIdx

noncomputable section

namespace Cert.LibUnitRow

open Idealize.ShloMosaic Idealize.ShloMosaic.ValueIdx

/-- An `[a]` vector cast to a `[1, a]` row, read at `(u, j)`: the vector's entry `j`. -/
theorem unitRow_apply {a : ℕ} {α : Type} (x : (⟨1, ![a]⟩ : Shape).Idx → α)
    (h : (⟨1, ![a]⟩ : Shape).ShapeCasts ⟨2, ![1, a]⟩) (u : Fin 1) (j : Fin a) :
    shapeCast ⟨2, ![1, a]⟩ x h (ix2 u j) = x (ix1 j) :=
  shapeCast_apply x h (ix2 u j) (ix1 j) (by
    rw [Shape.rowMajor_val_one, Shape.rowMajor_val_two]
    show j.val = u.val * a + j.val
    have hu : u.val = 0 := by have := u.isLt; omega
    rw [hu]
    omega)

end Cert.LibUnitRow

end
-- ==== Proof.LibColSum.lean ====
/-
  The sum of an `[a, b]` array along its FIRST axis, read at an index, on the extended reals: at entry `c` it is the
  sum over `r` of the array's entries `(r, c)`, the sum of column `c`.
-/
import Idealize.ShloMosaic.Lib.Pipeline.Value
import Idealize.ShloMosaic.Lib.ValueIdx
import Idealize.ShloMosaic.PureOps.Ideal.Laws

noncomputable section

namespace Cert.LibColSum

open Idealize.ShloMosaic Idealize.ShloMosaic.ValueIdx

/-- A sum along the FIRST axis of an `[a, b]` array, read at entry `c`: the sum over `r` of the entries `(r, c)`, the
    sum of column `c`.  The index the reduction puts back at the summed axis, beside the kept coordinate `c`, is
    `(r, c)`. -/
theorem colSum_apply {a b : ℕ} (src : FVec Ideal ⟨2, ![a, b]⟩ .f32)
    (h : (⟨2, ![a, b]⟩ : Shape).Reduces [(0 : Fin 2)] ⟨1, ![b]⟩) (hφ : FKind.Formats .f32)
    (hacc : (0x00000000#32 : BitVec 32) = FKind.add.neutral .f32 hφ) (c : Fin b) :
    multiReduction .add [(0 : Fin 2)] ⟨1, ![b]⟩ src 0x00000000#32 h hφ hacc (ix1 c) = ∑ r : Fin a, src (ix2 r c) :=
  (Ideal.multiReduction_add_single src 0x00000000#32 h hφ hacc (ix1 c)).trans
    (Finset.sum_congr rfl fun r _ => congrArg src (funext fun x => Fin.ext (by
      match x with
      | ⟨0, _⟩ => rfl
      | ⟨1, _⟩ => rfl)))

end Cert.LibColSum

end
-- ==== Proof.TripValue.lean ====
/-
  One trip of the row loop, read at an index, on the extended reals.

  A trip takes 256 rows `q` of the stored features, all 4096 rows `kk` of them, and the row accumulator `a` it finds.
  It forms the 256 × 4096 products `q · kkᵀ`, passes them through the LeakyReLU (the scores), subtracts from every row of
  scores that row's maximum, exponentiates, divides every row by its sum (the row softmax), sums the softmax down its
  256 rows, and adds the 4096 column sums to the accumulator.

  When the rows of `q` are the rows `ρ r` of a feature matrix `hp` whose rows `kk` lists in full, entry `(r, c)` of the
  softmax is `prob (score hp) (ρ r) c`, so the trip adds to entry `n` of the accumulator the sum over the trip's rows
  `r` of `prob (score hp) (ρ r) n`.
-/
import proofs.«122817_j7713761263781_2_alg».proof.Proof.Gen.KernelIdeal.Skeleton
import proofs.«122817_j7713761263781_2_alg».proof.Proof.Spec
import proofs.«122817_j7713761263781_2_alg».proof.Proof.LibMatmulNT
import proofs.«122817_j7713761263781_2_alg».proof.Proof.LibRowOps
import proofs.«122817_j7713761263781_2_alg».proof.Proof.LibRowMax
import proofs.«122817_j7713761263781_2_alg».proof.Proof.LibUnitColumn
import proofs.«122817_j7713761263781_2_alg».proof.Proof.LibColumn
import proofs.«122817_j7713761263781_2_alg».proof.Proof.LibUnitRow
import proofs.«122817_j7713761263781_2_alg».proof.Proof.LibColSum
import Idealize.ShloMosaic.Lib.Pipeline.Value
import Idealize.ShloMosaic.Lib.ValueIdx
import Idealize.ShloMosaic.PureOps.Ideal.Laws

noncomputable section

namespace Cert.KernelIdeal.TripValue

open Cert.KernelIdeal Cert.KernelIdeal.Gen Idealize.ShloMosaic Idealize.ShloMosaic.ValueIdx

/-! ## The coordinates the product's dimension numbers name -/

theorem dot_lhs_0 (j : S256x4096.Idx) (x : dot_S256x128_S4096x128_S256x4096_1_1_0_0_n_n.contr.Idx) :
    (dot_S256x128_S4096x128_S256x4096_1_1_0_0_n_n.lhsIdx j x 0).val = (j 0).val := by
  unfold DotDims.lhsIdx
  rw [dif_neg (show ¬(0 : Fin S256x128.rank) ∈ dot_S256x128_S4096x128_S256x4096_1_1_0_0_n_n.lhsBatch by decide),
    dif_pos (show (0 : Fin S256x128.rank) ∈ dot_S256x128_S4096x128_S256x4096_1_1_0_0_n_n.lhsNonContracting by decide)]
  rfl

theorem dot_lhs_1 (j : S256x4096.Idx) (x : dot_S256x128_S4096x128_S256x4096_1_1_0_0_n_n.contr.Idx) :
    (dot_S256x128_S4096x128_S256x4096_1_1_0_0_n_n.lhsIdx j x 1).val = (x ⟨0, by decide⟩).val :=
  dot_S256x128_S4096x128_S256x4096_1_1_0_0_n_n.lhsIdx_val_of_single rfl j x

theorem dot_rhs_0 (j : S256x4096.Idx) (x : dot_S256x128_S4096x128_S256x4096_1_1_0_0_n_n.contr.Idx) :
    (dot_S256x128_S4096x128_S256x4096_1_1_0_0_n_n.rhsIdx j x 0).val = (j 1).val := by
  unfold DotDims.rhsIdx
  rw [dif_neg (show ¬(0 : Fin S4096x128.rank) ∈ dot_S256x128_S4096x128_S256x4096_1_1_0_0_n_n.rhsBatch by decide),
    dif_pos (show (0 : Fin S4096x128.rank) ∈ dot_S256x128_S4096x128_S256x4096_1_1_0_0_n_n.rhsNonContracting by decide)]
  rfl

theorem dot_rhs_1 (j : S256x4096.Idx) (x : dot_S256x128_S4096x128_S256x4096_1_1_0_0_n_n.contr.Idx) :
    (dot_S256x128_S4096x128_S256x4096_1_1_0_0_n_n.rhsIdx j x 1).val = (x ⟨0, by decide⟩).val :=
  dot_S256x128_S4096x128_S256x4096_1_1_0_0_n_n.rhsIdx_val_of_single rfl j x

/-! ## The stages of a trip, as arrays over the two feature blocks -/

/-- The products `q · kkᵀ`. -/
def prods (q : Vec Ideal S256x128 .bf16) (kk : Vec Ideal S4096x128 .bf16) : FVec Ideal S256x4096 .f32 :=
  matmul (φ₁ := .bf16) (φ₂ := .bf16) dot_S256x128_S4096x128_S256x4096_1_1_0_0_n_n none q kk (constant S256x4096 .f32 0x00000000#32)

/-- The scores: the LeakyReLU of the products. -/
def scores (q : Vec Ideal S256x128 .bf16) (kk : Vec Ideal S4096x128 .bf16) : FVec Ideal S256x4096 .f32 :=
  select (cmpf .oge (prods q kk) (broadcast S256x4096 (Scalar.ofBits (F := Ideal) .f32 0x00000000#32))) (prods q kk)
    (mulf (broadcast S256x4096 (Scalar.ofBits (F := Ideal) .f32 0x3E4CCCCD#32)) (prods q kk))

/-- The maximum of every row of scores. -/
def rowMaxes (q : Vec Ideal S256x128 .bf16) (kk : Vec Ideal S4096x128 .bf16) : FVec Ideal S256 .f32 :=
  multiReduction .maximumf [1] S256 (scores q kk) 0xFF800000#32 reduces_S256x4096_S256 (.inl rfl) rfl

/-- The exponentials of the scores less their row's maximum. -/
def expos (q : Vec Ideal S256x128 .bf16) (kk : Vec Ideal S4096x128 .bf16) : FVec Ideal S256x4096 .f32 :=
  exp (subf (scores q kk)
    (broadcastTo S256x4096 (shapeCast S256x1 (rowMaxes q kk) shapeCasts_S256_S256x1) broadcasts_S256x1_S256x4096))

/-- The sum of every row of exponentials. -/
def rowSums (q : Vec Ideal S256x128 .bf16) (kk : Vec Ideal S4096x128 .bf16) : FVec Ideal S256 .f32 :=
  multiReduction .add [1] S256 (expos q kk) 0x00000000#32 reduces_S256x4096_S256 (.inl rfl) rfl

/-- The row softmax: every exponential over its row's sum. -/
def probs (q : Vec Ideal S256x128 .bf16) (kk : Vec Ideal S4096x128 .bf16) : FVec Ideal S256x4096 .f32 :=
  divf (expos q kk)
    (broadcastTo S256x4096 (shapeCast S256x1 (rowSums q kk) shapeCasts_S256_S256x1) broadcasts_S256x1_S256x4096)

/-- A trip's stored value is the accumulator plus the column sums of the row softmax, laid out as a row. -/
theorem pay_eq (q : Vec Ideal S256x128 .bf16) (kk : Vec Ideal S4096x128 .bf16) (a : Vec Ideal S1x4096 .f32) :
    k0_pay5 (F := Ideal) q kk a
      = shapeCast S1x4096 (addf a (shapeCast S1x4096
          (multiReduction .add [0] S4096 (probs q kk) 0x00000000#32 reduces_S256x4096_S4096 (.inl rfl) rfl)
          shapeCasts_S4096_S1x4096)) shapeCasts_S1x4096_S1x4096 := rfl

/-- A `[256]` vector turned into a column and spread over 4096 columns reads, at `(r, c)`, its entry `r`. -/
theorem column_apply (v : FVec Ideal S256 .f32) (r : Fin 256) (c : Fin 4096) :
    broadcastTo S256x4096 (shapeCast S256x1 v shapeCasts_S256_S256x1) broadcasts_S256x1_S256x4096 (ix2 r c) = v (ix1 r) :=
  (Cert.LibColumn.broadcastTo_a1_ab_apply (shapeCast S256x1 v shapeCasts_S256_S256x1) broadcasts_S256x1_S256x4096 r c).trans
    (Cert.LibUnitColumn.shapeCast_a_a1_apply v shapeCasts_S256_S256x1 r (0 : Fin 1))

/-! ## The stages read at an index, when the blocks list rows of one feature matrix -/

section
variable (q : Vec Ideal S256x128 .bf16) (kk : Vec Ideal S4096x128 .bf16)
  (hp : Fin 4096 → Fin 128 → EReal) (ρ : Fin 256 → Fin 4096)
  (hq : ∀ (r : Fin 256) (d : Fin 128), q (ix2 r d) = hp (ρ r) d)
  (hk : ∀ (n : Fin 4096) (d : Fin 128), kk (ix2 n d) = hp n d)
include hq hk

/-- The product at `(r, c)` is the inner product of rows `ρ r` and `c` of the features. -/
theorem prods_apply (r : Fin 256) (c : Fin 4096) :
    prods q kk (ix2 r c) = ∑ d : Fin 128, hp (ρ r) d * hp c d :=
  (Cert.LibMatmulNT.matmul_nt_zero_apply dot_S256x128_S4096x128_S256x4096_1_1_0_0_n_n none q kk rfl rfl
    dot_lhs_0 dot_lhs_1 dot_rhs_0 dot_rhs_1 r c).trans
    (Finset.sum_congr rfl fun d _ => by rw [hq r d, hk c d])

/-- The score at `(r, c)` is the score of rows `ρ r` and `c`. -/
theorem scores_apply (r : Fin 256) (c : Fin 4096) :
    scores q kk (ix2 r c) = Cert.Spec.score hp (ρ r) c := by
  have e := prods_apply q kk hp ρ hq hk r c
  show Scalar.select (FloatOps.cmpf .oge (prods q kk (ix2 r c)) _) (prods q kk (ix2 r c))
    (FloatOps.mulf _ (prods q kk (ix2 r c))) = _
  rw [e]
  rfl

/-- The maximum of row `r` of the scores is the maximum of row `ρ r` of the score matrix. -/
theorem rowMaxes_apply (r : Fin 256) :
    rowMaxes q kk (ix1 r) = Cert.Spec.rowMax (Cert.Spec.score hp) (ρ r) := by
  unfold Cert.Spec.rowMax Cert.Spec.start
  exact (Cert.LibRowMax.rowMax_apply (scores q kk) 0xFF800000#32 reduces_S256x4096_S256 (.inl rfl) rfl r).trans
    (Finset.fold_congr fun k _ => scores_apply q kk hp ρ hq hk r k)

/-- The exponential at `(r, c)` is the unnormalised softmax weight at `(ρ r, c)`. -/
theorem expos_apply (r : Fin 256) (c : Fin 4096) :
    expos q kk (ix2 r c) = Cert.Spec.expo (Cert.Spec.score hp) (ρ r) c := by
  show FloatOps.exp (FloatOps.subf (scores q kk (ix2 r c))
    (broadcastTo S256x4096 (shapeCast S256x1 (rowMaxes q kk) shapeCasts_S256_S256x1) broadcasts_S256x1_S256x4096 (ix2 r c))) = _
  rw [column_apply (rowMaxes q kk) r c, scores_apply q kk hp ρ hq hk r c, rowMaxes_apply q kk hp ρ hq hk r]
  rfl

/-- The sum of row `r` of the exponentials is the softmax denominator of row `ρ r`. -/
theorem rowSums_apply (r : Fin 256) :
    rowSums q kk (ix1 r) = ∑ k : Fin 4096, Cert.Spec.expo (Cert.Spec.score hp) (ρ r) k :=
  (Cert.LibRowOps.rowSum_apply (expos q kk) reduces_S256x4096_S256 (.inl rfl) rfl r).trans
    (Finset.sum_congr rfl fun k _ => expos_apply q kk hp ρ hq hk r k)

/-- The row softmax at `(r, c)` is the softmax of row `ρ r` at column `c`. -/
theorem probs_apply (r : Fin 256) (c : Fin 4096) :
    probs q kk (ix2 r c) = Cert.Spec.prob (Cert.Spec.score hp) (ρ r) c := by
  show FloatOps.divf (expos q kk (ix2 r c))
    (broadcastTo S256x4096 (shapeCast S256x1 (rowSums q kk) shapeCasts_S256_S256x1) broadcasts_S256x1_S256x4096 (ix2 r c)) = _
  rw [column_apply (rowSums q kk) r c, expos_apply q kk hp ρ hq hk r c, rowSums_apply q kk hp ρ hq hk r]
  rfl

end

/-- One trip adds to entry `n` of the accumulator the sum over its rows `r` of the softmax of row `ρ r` at column `n`. -/
theorem trip_apply (q : Vec Ideal S256x128 .bf16) (kk : Vec Ideal S4096x128 .bf16) (a : Vec Ideal S1x4096 .f32)
    (hp : Fin 4096 → Fin 128 → EReal) (ρ : Fin 256 → Fin 4096)
    (hq : ∀ (r : Fin 256) (d : Fin 128), q (ix2 r d) = hp (ρ r) d)
    (hk : ∀ (n : Fin 4096) (d : Fin 128), kk (ix2 n d) = hp n d) (u : Fin 1) (n : Fin 4096) :
    k0_pay5 (F := Ideal) q kk a (ix2 u n) = a (ix2 u n) + ∑ r : Fin 256, Cert.Spec.prob (Cert.Spec.score hp) (ρ r) n := by
  rw [pay_eq, shapeCast_self]
  show FloatOps.addf (a (ix2 u n)) (shapeCast S1x4096
    (multiReduction .add [0] S4096 (probs q kk) 0x00000000#32 reduces_S256x4096_S4096 (.inl rfl) rfl)
    shapeCasts_S4096_S1x4096 (ix2 u n)) = _
  rw [Cert.LibUnitRow.unitRow_apply _ shapeCasts_S4096_S1x4096 u n,
    Cert.LibColSum.colSum_apply (probs q kk) reduces_S256x4096_S4096 (.inl rfl) rfl n]
  exact congrArg (fun t => a (ix2 u n) + t) (Finset.sum_congr rfl fun r _ => probs_apply q kk hp ρ hq hk r n)

end Cert.KernelIdeal.TripValue

end
-- ==== Proof.LibRangeRuns.lean ====
/-
  A sum over consecutive natural numbers, taken run by run.

  The sum of `F` over the first `a · b` naturals is the sum, over the `a` consecutive runs of length `b`, of the sums
  of `F` over each run: `∑_{s < a} ∑_{j < b} F (b·s + j) = ∑_{n < a·b} F n`, in any additive commutative monoid.  A
  reduction that a program walks in equal consecutive chunks, adding each chunk's partial sum into an accumulator,
  is regrouped into the one sum by this.
-/
import Mathlib.Algebra.BigOperators.Intervals

open scoped BigOperators

namespace Cert.LibRangeRuns

/-- A sum over `a · b` consecutive naturals is the sum over its `a` consecutive runs of length `b`. -/
theorem sum_range_runs {β : Type*} [AddCommMonoid β] (b : ℕ) (F : ℕ → β) :
    ∀ a : ℕ, ∑ s ∈ Finset.range a, ∑ j ∈ Finset.range b, F (b * s + j) = ∑ n ∈ Finset.range (a * b), F n
  | 0 => by simp
  | a + 1 => by
    rw [Finset.sum_range_succ, sum_range_runs b F a, Nat.succ_mul, Finset.sum_range_add, Nat.mul_comm b a]

/-- The same with each run indexed by `Fin b`. -/
theorem sum_range_runs_fin {β : Type*} [AddCommMonoid β] (a b : ℕ) (F : ℕ → β) :
    ∑ s ∈ Finset.range a, ∑ j : Fin b, F (b * s + j.val) = ∑ n ∈ Finset.range (a * b), F n := by
  rw [← sum_range_runs b F a]
  exact Finset.sum_congr rfl fun s _ => Fin.sum_univ_eq_sum_range (fun j => F (b * s + j)) b

end Cert.LibRangeRuns
-- ==== Proof.Accumulate.lean ====
/-
  The accumulator after the sixteen trips.

  Trip `k` adds to the accumulator, at column `n`, the sum over its 256 rows `256·k + r` of the row softmax at `n`.
  Starting from zero, after all trips the accumulator at `n` is the sum over ALL 4096 rows: sixteen consecutive runs
  of 256 make up the whole range.  That sum is the column's mass.
-/
import proofs.«122817_j7713761263781_2_alg».proof.Proof.Payloads
import proofs.«122817_j7713761263781_2_alg».proof.Proof.TripValue
import proofs.«122817_j7713761263781_2_alg».proof.Proof.Spec
import proofs.«122817_j7713761263781_2_alg».proof.Proof.LibRangeRuns
import Mathlib.Algebra.BigOperators.Fin

noncomputable section

namespace Cert.KernelIdeal.Accumulate

open Cert.KernelIdeal Cert.KernelIdeal.Gen Idealize.ShloMosaic Idealize.ShloMosaic.ValueIdx

/-- The softmax weight of row `x` at column `n`, extended by zero past the last row: what a walk over the naturals adds. -/
def term (hp : Fin 4096 → Fin 128 → EReal) (n : Fin 4096) (x : ℕ) : EReal :=
  if h : x < 4096 then Cert.Spec.prob (Cert.Spec.score hp) ⟨x, h⟩ n else 0

/-- After `k` trips the accumulator holds the first `k` runs of 256 rows. -/
theorem acc_partial (hb : Vec Ideal S4096x128 .bf16) (hp : Fin 4096 → Fin 128 → EReal)
    (hk : ∀ (n : Fin 4096) (d : Fin 128), hb (ix2 n d) = hp n d) (n : Fin 4096) (u : Fin 1) :
    ∀ k : ℕ, k ≤ 16 → Cert.KernelIdeal.RunValue.acc (F := Ideal) hb k (ix2 u n)
      = ∑ j ∈ Finset.range k, ∑ r : Fin 256, term hp n (256 * j + r.val)
  | 0, _ => by rw [Cert.KernelIdeal.RunValue.acc, Cert.KernelIdeal.Payloads.pay4_apply, Finset.sum_range_zero]
  | k + 1, h => by
    have hlt : k < k0_t1_loop.trips := by rw [Cert.KernelIdeal.RunValue.trips_eq]; omega
    have ih := acc_partial hb hp hk n u k (by omega)
    have hs := Cert.KernelIdeal.RunValue.acc_succ (F := Ideal) hb ⟨k, hlt⟩
    have hrow : ∀ r : Fin 256, 256 * k + r.val < 4096 := fun r => by have := r.isLt; omega
    rw [show Cert.KernelIdeal.RunValue.acc (F := Ideal) hb (k + 1) = _ from hs,
      Cert.KernelIdeal.TripValue.trip_apply _ _ _ hp (fun r => ⟨256 * k + r.val, hrow r⟩)
        (fun r d => (Cert.KernelIdeal.Payloads.rowsOf_apply hb ⟨k, hlt⟩ r d (hrow r)).trans (hk _ d)) hk u n,
      Finset.sum_range_succ]
    show Cert.KernelIdeal.RunValue.acc (F := Ideal) hb k (ix2 u n) + _ = _
    rw [ih]
    refine congrArg _ (Finset.sum_congr rfl fun r _ => ?_)
    unfold term
    rw [dif_pos (hrow r)]

/-- After all sixteen trips the accumulator at column `n` is the column's mass. -/
theorem acc_apply (hb : Vec Ideal S4096x128 .bf16) (hp : Fin 4096 → Fin 128 → EReal)
    (hk : ∀ (n : Fin 4096) (d : Fin 128), hb (ix2 n d) = hp n d) (n : Fin 4096) (u : Fin 1) :
    Cert.KernelIdeal.RunValue.acc (F := Ideal) hb k0_t1_loop.trips (ix2 u n) = Cert.Spec.mass (Cert.Spec.score hp) n := by
  rw [Cert.KernelIdeal.RunValue.trips_eq, acc_partial hb hp hk n u 16 (Nat.le_refl _),
    Cert.LibRangeRuns.sum_range_runs_fin 16 256 (term hp n)]
  show ∑ x ∈ Finset.range 4096, term hp n x = _
  rw [← Fin.sum_univ_eq_sum_range (term hp n) 4096]
  unfold Cert.Spec.mass
  refine Finset.sum_congr rfl fun m _ => ?_
  unfold term
  rw [dif_pos m.isLt]

end Cert.KernelIdeal.Accumulate

end
-- ==== Proof.Final.lean ====
/-
  From one point's block to the whole result array.

  Grid point `t` works on batch `t`: its input block is slab `t` of `h`, its weights block is all of `W`, and the block
  it writes back is slab `t` of the result.  The body's value at `(0, n, d)` of its block is the specification at
  `(t, n, d)`: the features product read through the block, scaled by the accumulated column mass of the block's own
  score matrix.  The four slabs fill the array, so after the run the array is the specification everywhere.
-/
import proofs.«122817_j7713761263781_2_alg».proof.Proof.Gen.KernelIdeal.Value
import proofs.«122817_j7713761263781_2_alg».proof.Proof.RunValue
import proofs.«122817_j7713761263781_2_alg».proof.Proof.Payloads
import proofs.«122817_j7713761263781_2_alg».proof.Proof.Accumulate
import proofs.«122817_j7713761263781_2_alg».proof.Proof.Spec

set_option maxRecDepth 16384

noncomputable section

namespace Cert.KernelIdeal.Final

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The printed index maps over the four grid points: the features' and the result's blocks move with the point along
    the batch axis and stay put on the others; the weights' block never moves. -/
theorem idx_facts : ∀ t : Fin cfg0.N, win0_0.index t (0 : Fin 3) = t.val ∧ win0_0.index t (1 : Fin 3) = 0
    ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

theorem lt4 (t : Fin cfg0.N) : t.val < 4 := Nat.lt_of_lt_of_eq t.isLt N_0

/-- The features' block at point `t` is slab `t` of the argument. -/
theorem iblk0_apply (c : Dev nD) (t : Fin cfg0.N) (z : Fin 1) (n : Fin 4096) (f : Fin 256) :
    (iblk m c 0 t : Vec Ideal S1x4096x256 .f32) (ix3 z n f) = V m c main_arg0 (ix3 ⟨t.val, lt4 t⟩ n f) := by
  show V m c main_arg0 (((cfg0.win 0).blk t).view.emb (ix3 z n f)) = V m c main_arg0 (ix3 ⟨t.val, lt4 t⟩ n f)
  obtain ⟨e0, e1, e2, -⟩ := idx_facts t
  refine congrArg (V m c main_arg0) (funext fun a => Fin.ext ?_)
  match a with
  | ⟨0, _⟩ => show win0_0.index t (0 : Fin 3) * 1 + 1 * z.val = t.val; have := z.isLt; omega
  | ⟨1, _⟩ => show win0_0.index t (1 : Fin 3) * 4096 + 1 * n.val = n.val; omega
  | ⟨2, _⟩ => show win0_0.index t (2 : Fin 3) * 256 + 1 * f.val = f.val; omega

/-- The weights' block at every point is the whole argument. -/
theorem iblk1_apply (c : Dev nD) (t : Fin cfg0.N) (f : Fin 256) (d : Fin 128) :
    (iblk m c 1 t : Vec Ideal S256x128 .f32) (ix2 f d) = V m c main_arg2 (ix2 f d) := by
  show V m c main_arg2 (((cfg0.win 1).blk t).view.emb (ix2 f d)) = V m c main_arg2 (ix2 f d)
  obtain ⟨-, -, -, e0, e1, -⟩ := idx_facts t
  refine congrArg (V m c main_arg2) (funext fun a => Fin.ext ?_)
  match a with
  | ⟨0, _⟩ => show win0_1.index t (0 : Fin 2) * 256 + 1 * f.val = f.val; omega
  | ⟨1, _⟩ => show win0_1.index t (1 : Fin 2) * 128 + 1 * d.val = d.val; omega

/-- The specification of the run: `G` of the two float arguments as the region finds them. -/
abbrev result (c : Dev nD) : FVec Ideal ⟨3, ![4, 4096, 128]⟩ .f32 :=
  Cert.Spec.G (V m c main_arg0) (V m c main_arg2)

/-- What the body leaves in its output block at point `t`, entry `(z, n, d)`: the specification at `(t, n, d)`. -/
theorem block_eq (c : Dev nD) (t : Fin cfg0.N) (z : Fin 1) (n : Fin 4096) (d : Fin 128) :
    outsAt0 (F := Ideal) m c t (ix3 z n d) = result m c (ix3 ⟨t.val, lt4 t⟩ n d) := by
  have hfeat : ∀ (n' : Fin 4096) (d' : Fin 128),
      k0_pay2 (F := Ideal) (iblk m c 0 t) (iblk m c 1 t) (ix2 n' d')
        = Cert.Spec.feat (V m c main_arg0) (V m c main_arg2) ⟨t.val, lt4 t⟩ n' d' := fun n' d' =>
    (Cert.KernelIdeal.Payloads.pay2_apply _ _ n' d').trans
      (Finset.sum_congr rfl fun f _ => by rw [iblk0_apply, iblk1_apply])
  have hout := Cert.KernelIdeal.RunValue.out_eq (F := Ideal) c (grid0.coords t) (ms0_0 t) (hs0_0 t) (ms0_1 t) (hs0_1 t)
    (ms0_2 t) (hs0_2 t) scM0_0 (Memref.isWhole_whole _) scM0_1 (Memref.isWhole_whole _) scM0_2 (Memref.isWhole_whole _)
    scM0_3 (Memref.isWhole_whole _) (iblk m c 0 t) (iblk m c 1 t)
  rw [show outsAt0 (F := Ideal) m c t = _ from hout]
  rw [Cert.KernelIdeal.Payloads.pay1_apply, Cert.KernelIdeal.Payloads.pay7_apply, Cert.KernelIdeal.Payloads.pay6_apply,
    Cert.KernelIdeal.Accumulate.acc_apply _ (Cert.Spec.feat (V m c main_arg0) (V m c main_arg2) ⟨t.val, lt4 t⟩)
      (fun n' d' => (Cert.KernelIdeal.Payloads.pay3_apply _ _).trans (hfeat n' d')) n 0,
    hfeat]
  rfl

/-- The same at any index of the block: only the row and lane coordinates matter. -/
theorem block_at (c : Dev nD) (t : Fin cfg0.N) (j : S1x4096x128.Idx) :
    outsAt0 (F := Ideal) m c t j = result m c (ix3 ⟨t.val, lt4 t⟩ (j 1) (j 2)) := by
  conv_lhs => rw [eq_ix3 j]
  exact block_eq m c t (j 0) (j 1) (j 2)

/-- What point `t` writes back is block `t` of the specification. -/
theorem flushed_eq (c : Dev nD) (t : Fin cfg0.N) :
    (dats m 0 c).flushed 2 t = ((cfg0.win 2).blk t).view.read (Elt Ideal) (result m c) := by
  rw [flushed2]
  funext j
  show (outsAt0 (F := Ideal) m c t : Vec Ideal S1x4096x128 .f32) j = result m c (((cfg0.win 2).blk t).view.emb j)
  refine (block_at m c t j).trans ?_
  obtain ⟨-, -, -, -, -, e0, e1, e2⟩ := idx_facts t
  refine congrArg (result m c) (funext fun a => Fin.ext ?_)
  match a with
  | ⟨0, _⟩ => show t.val = win0_2.index t (0 : Fin 3) * 1 + 1 * (j 0).val; have hj0 : (j 0).val < 1 := (j 0).isLt; omega
  | ⟨1, _⟩ => show (j 1).val = win0_2.index t (1 : Fin 3) * 4096 + 1 * (j 1).val; omega
  | ⟨2, _⟩ => show (j 2).val = win0_2.index t (2 : Fin 3) * 128 + 1 * (j 2).val; omega

/-- An index of the result is in point `t`'s block iff each coordinate is in the block's range. -/
theorem mem_blk (t : Fin cfg0.N) (i : S4x4096x128.Idx) :
    i ∈ ((cfg0.win 2).blk t).view.set ↔ ∀ a : Fin 3, win0_2.index t a * S1x4096x128.size a ≤ (i a).val
      ∧ (i a).val < win0_2.index t a * S1x4096x128.size a + S1x4096x128.size a := by
  show i ∈ ((View.whole main_v0).slice (win0_2.rect t)).set ↔ _
  rw [View.set_slice_whole, Rect.mem_set_unit]
  exact Iff.rfl

/-- Every index of the result lies in the block of the point its batch coordinate names. -/
theorem cover (i : S4x4096x128.Idx) :
    ∃ t : Fin cfg0.N, (cfg0.win 2).flush t = true ∧ i ∈ ((cfg0.win 2).blk t).view.set := by
  have h0 : (i 0).val < 4 := (i 0).isLt
  have h1 : (i 1).val < 4096 := (i 1).isLt
  have h2 : (i 2).val < 128 := (i 2).isLt
  have hN : (i 0).val < cfg0.N := Nat.lt_of_lt_of_eq h0 N_0.symm
  refine ⟨⟨(i 0).val, hN⟩, flush0_2 _, ?_⟩
  rw [mem_blk]
  obtain ⟨-, -, -, -, -, e0', e1, e2⟩ := idx_facts ⟨(i 0).val, hN⟩
  have e0 : win0_2.index ⟨(i 0).val, hN⟩ (0 : Fin 3) = (i 0).val := e0'
  intro a
  match a with
  | ⟨0, _⟩ =>
    show win0_2.index _ (0 : Fin 3) * 1 ≤ (i 0).val ∧ (i 0).val < win0_2.index _ (0 : Fin 3) * 1 + 1
    rw [e0]; omega
  | ⟨1, _⟩ =>
    show win0_2.index _ (1 : Fin 3) * 4096 ≤ (i 1).val ∧ (i 1).val < win0_2.index _ (1 : Fin 3) * 4096 + 4096
    rw [e1]; omega
  | ⟨2, _⟩ =>
    show win0_2.index _ (2 : Fin 3) * 128 ≤ (i 2).val ∧ (i 2).val < win0_2.index _ (2 : Fin 3) * 128 + 128
    rw [e2]; omega

/-- After the run the result array is the specification. -/
theorem final (c : Dev nD) : (dats m 0 c).arrAt 2 cfg0.N = result m c :=
  (dats m 0 c).arrAt_eq_of_cover 2 (result m c) (fun t _ => flushed_eq m c t) cover

/-- The kernel's run, read: the result array at the specification of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Final

end
-- ==== Proof.RefValue.lean ====
/-
  The reference program, read stage by stage, is the specification.

  For a batch `b` write `hp = feat H W b` for the projected features and `s = score hp` for their score matrix.
  The program forms `s` at `(n, k)`, takes its maximum DOWN each column `k` (over the row coordinate), subtracts it,
  exponentiates, sums down the column, divides, and finally sums each row `n` ACROSS the columns.  Because `s` is
  symmetric, the maximum down column `k` is the maximum along row `k`, the entry the program holds at `(n, k)` is the
  row softmax `prob s k n`, and the row sum at `n` is the mass of column `n`.
-/
import proofs.«122817_j7713761263781_2_alg».proof.Proof.Gen.ReferenceIdeal.Read
import proofs.«122817_j7713761263781_2_alg».proof.Proof.Spec

noncomputable section

namespace Cert.ReferenceIdeal.RefValue

open Cert.ReferenceIdeal Cert.ReferenceIdeal.Gen Cert.ReferenceIdeal.Read Idealize.ShloMosaic
  Idealize.ShloMosaic.ValueIdx Cert.Spec

variable (x0 : (⟨S4x4096x256, .f32⟩ : BufTy).Contents (Elt Ideal)) (x2 : (⟨S256x128, .f32⟩ : BufTy).Contents (Elt Ideal))

/-- The first product at `(b, n, d)` is the projected feature: row `n` of `H[b]` against column `d` of `W`. -/
theorem v0_at (b : Fin 4) (n : Fin 4096) (d : Fin 128) :
    val_main_v0 (F := Ideal) x0 x2 (ix3 b n d) = feat x0 x2 b n d := by
  rw [val_main_v0_apply]
  unfold feat
  refine Finset.sum_congr rfl fun f _ => ?_
  have el : lidx_main_v0 (ix3 b n d) f = ix3 b n f :=
    funext fun a => Fin.ext (by match a with | ⟨0, _⟩ => rfl | ⟨1, _⟩ => rfl | ⟨2, _⟩ => rfl)
  have er : ridx_main_v0 (ix3 b n d) f = ix2 f d :=
    funext fun a => Fin.ext (by match a with | ⟨0, _⟩ => rfl | ⟨1, _⟩ => rfl)
  rw [el, er]

/-- The second product at `(b, n, k)` is the inner product of feature rows `n` and `k`. -/
theorem v1_at (b : Fin 4) (n k : Fin 4096) :
    val_main_v1 (F := Ideal) x0 x2 (ix3 b n k) = ∑ d : Fin 128, feat x0 x2 b n d * feat x0 x2 b k d := by
  rw [val_main_v1_apply]
  refine Finset.sum_congr rfl fun d _ => ?_
  have el : lidx_main_v1 (ix3 b n k) d = ix3 b n d :=
    funext fun a => Fin.ext (by match a with | ⟨0, _⟩ => rfl | ⟨1, _⟩ => rfl | ⟨2, _⟩ => rfl)
  have er : ridx_main_v1 (ix3 b n k) d = ix3 b k d :=
    funext fun a => Fin.ext (by match a with | ⟨0, _⟩ => rfl | ⟨1, _⟩ => rfl | ⟨2, _⟩ => rfl)
  rw [el, er, v0_at, v0_at]

/-- The entry the program selects at `(b, n, k)` is the score of feature rows `n` and `k`: the comparison with zero, the
    slope product and the selection are the LeakyReLU as the specification spells it. -/
theorem v6_at (b : Fin 4) (n k : Fin 4096) :
    val_main_v6 (F := Ideal) x0 x2 (ix3 b n k) = score (feat x0 x2 b) n k := by
  rw [val_main_v6_apply, val_main_v3_apply, val_main_v5_apply, val_main_v2_apply, val_main_v4_apply,
    val_main_cst_apply, val_main_cst_0_apply, v1_at]
  rfl

/-- A reduced index `(b, k)` with the coordinate `j` put back on the middle axis is `(b, j, k)`. -/
theorem lift_mid (h : S4x4096x4096.Reduces [1] S4x4096) (b : Fin 4) (k : Fin 4096) (j : Fin (S4x4096x4096.size 1)) :
    h.lift (ix2 b k) j = ix3 b (⟨j.val, j.isLt⟩ : Fin 4096) k := by
  funext c; apply Fin.ext
  fin_cases c <;> rfl

/-- The maximum the program takes down column `k` of the score matrix is, by symmetry, the maximum along row `k`. -/
theorem v7_at (b : Fin 4) (k : Fin 4096) :
    val_main_v7 (F := Ideal) x0 x2 (ix2 b k) = rowMax (score (feat x0 x2 b)) k := by
  have h : S4x4096x4096.Reduces [1] S4x4096 := by decide
  unfold val_main_v7
  refine (Host.reduce_eq_fold_single (FloatOps.maximumf (F := Ideal) (φ := .f32)) (val_main_v6 (F := Ideal) x0 x2)
    (val_main_cst_1 (F := Ideal)) reducesTo_S4x4096x4096_S4x4096_d1 h h_S_ (ix2 b k)).trans ?_
  have hf : (val_main_v6 (F := Ideal) x0 x2 ∘ h.lift (ix2 b k)) = fun j : Fin 4096 => score (feat x0 x2 b) k j :=
    funext fun j => (congrArg (val_main_v6 (F := Ideal) x0 x2) (lift_mid h b k j)).trans
      ((v6_at x0 x2 b ⟨j.val, j.isLt⟩ k).trans (score_symm _ _ _))
  unfold rowMax start
  exact congrArg (fun f => Finset.fold max (Ideal.ofBits .f32 0xFF800000#32) f (Finset.univ : Finset (Fin 4096))) hf

/-- Taking the maximum once more with the start value changes nothing. -/
theorem v9_at (b : Fin 4) (k : Fin 4096) :
    val_main_v9 (F := Ideal) x0 x2 (ix2 b k) = rowMax (score (feat x0 x2 b)) k := by
  rw [val_main_v9_apply, val_main_v8_apply, val_main_cst_2_apply, v7_at]
  exact max_start_fold _ _

/-- The column maxima spread over the rows: at `(b, n, k)` the maximum of column `k`. -/
theorem v11_at (b : Fin 4) (n k : Fin 4096) :
    val_main_v11 (F := Ideal) x0 x2 (ix3 b n k) = rowMax (score (feat x0 x2 b)) k := by
  rw [val_main_v11_apply, val_main_v10_apply]
  have e : idx_main_v10 (idx_main_v11 (ix3 b n k)) = ix2 b k :=
    funext fun a => Fin.ext (by match a with | ⟨0, _⟩ => rfl | ⟨1, _⟩ => rfl)
  rw [e, v9_at]

/-- The exponential at `(b, n, k)` is the unnormalised softmax weight of row `k` at column `n`. -/
theorem v13_at (b : Fin 4) (n k : Fin 4096) :
    val_main_v13 (F := Ideal) x0 x2 (ix3 b n k) = expo (score (feat x0 x2 b)) k n := by
  rw [val_main_v13_apply, val_main_v12_apply, v6_at, v11_at, score_symm (feat x0 x2 b) n k]
  rfl

/-- The sum down column `k` of the exponentials is the normaliser of row `k`. -/
theorem v14_at (b : Fin 4) (k : Fin 4096) :
    val_main_v14 (F := Ideal) x0 x2 (ix2 b k) = ∑ j : Fin 4096, expo (score (feat x0 x2 b)) k j := by
  rw [val_main_v14_apply, val_main_cst_3_apply, Ideal.ofBits_def, Ideal.ofBits_zero_f32, zero_add]
  refine Finset.sum_congr rfl fun j _ => ?_
  have e : idx_main_v14 (ix2 b k) j = ix3 b j k :=
    funext fun a => Fin.ext (by match a with | ⟨0, _⟩ => rfl | ⟨1, _⟩ => rfl | ⟨2, _⟩ => rfl)
  rw [e, v13_at]

/-- The normalisers spread over the rows: at `(b, n, k)` the normaliser of row `k`. -/
theorem v16_at (b : Fin 4) (n k : Fin 4096) :
    val_main_v16 (F := Ideal) x0 x2 (ix3 b n k) = ∑ j : Fin 4096, expo (score (feat x0 x2 b)) k j := by
  rw [val_main_v16_apply, val_main_v15_apply]
  have e : idx_main_v15 (idx_main_v16 (ix3 b n k)) = ix2 b k :=
    funext fun a => Fin.ext (by match a with | ⟨0, _⟩ => rfl | ⟨1, _⟩ => rfl)
  rw [e, v14_at]

/-- The quotient at `(b, n, k)` is the softmax of row `k` at column `n`. -/
theorem v17_at (b : Fin 4) (n k : Fin 4096) :
    val_main_v17 (F := Ideal) x0 x2 (ix3 b n k) = prob (score (feat x0 x2 b)) k n := by
  rw [val_main_v17_apply, v13_at, v16_at]
  rfl

/-- The sum along row `n` of the quotients is the mass of column `n`. -/
theorem v18_at (b : Fin 4) (n : Fin 4096) :
    val_main_v18 (F := Ideal) x0 x2 (ix2 b n) = mass (score (feat x0 x2 b)) n := by
  rw [val_main_v18_apply, val_main_cst_4_apply, Ideal.ofBits_def, Ideal.ofBits_zero_f32, zero_add]
  unfold mass
  refine Finset.sum_congr rfl fun k _ => ?_
  have e : idx_main_v18 (ix2 b n) k = ix3 b n k :=
    funext fun a => Fin.ext (by match a with | ⟨0, _⟩ => rfl | ⟨1, _⟩ => rfl | ⟨2, _⟩ => rfl)
  rw [e, v17_at]

/-- The masses spread over the feature columns: at `(b, n, d)` the mass of column `n`. -/
theorem v20_at (b : Fin 4) (n : Fin 4096) (d : Fin 128) :
    val_main_v20 (F := Ideal) x0 x2 (ix3 b n d) = mass (score (feat x0 x2 b)) n := by
  rw [val_main_v20_apply, val_main_v19_apply]
  have e : idx_main_v19 (idx_main_v20 (ix3 b n d)) = ix2 b n :=
    funext fun a => Fin.ext (by match a with | ⟨0, _⟩ => rfl | ⟨1, _⟩ => rfl)
  rw [e, v18_at]

/-- The reference program's result is the specification. -/
theorem ref_eq (x0 : (⟨Cert.ReferenceIdeal.S4x4096x256, .f32⟩ : BufTy).Contents (Elt Ideal))
    (x2 : (⟨Cert.ReferenceIdeal.S256x128, .f32⟩ : BufTy).Contents (Elt Ideal)) :
    Cert.ReferenceIdeal.Read.val_main_v21 (F := Ideal) x0 x2 = Cert.Spec.G x0 x2 := by
  funext i
  obtain ⟨b, n, d, rfl⟩ : ∃ (b : Fin 4) (n : Fin 4096) (d : Fin 128), i = ix3 b n d := ⟨i 0, i 1, i 2, eq_ix3 i⟩
  rw [val_main_v21_apply, v0_at, v20_at, G_apply]
  rfl

end Cert.ReferenceIdeal.RefValue

end
-- ==== Proof.lean ====
/-
  The kernel computes, per batch, the projected features `hp = h·W`, then walks the rows of `hp` in sixteen runs of 256:
  each run forms its rows' scores against all rows (LeakyReLU of the inner products), takes the softmax of each of
  its rows, and adds the column sums to an accumulator; at the end the accumulator, as a column, scales `hp`.  So the
  result at `(b, n, d)` is `hp n d · ∑_m P m n` with `P` the ROW softmax of the score matrix.

  The reference forms the whole score matrix, takes its softmax DOWN THE COLUMNS and sums the result ALONG THE ROWS.  The
  score matrix is symmetric (products commute under the contraction sum), so the column softmax at `(n, m)` is the row
  softmax at `(m, n)`, and the two programs name one function of the arguments on the extended reals (Proof/Spec.lean:
  `G`).  No step needs the inputs finite: the laws used are commutativity of the product, regrouping of a finite sum and
  `max` with the value a maximum started from.

  Kernel side: Proof/RunValue.lean reads one grid point's body as a composition of its payloads, the loop folded into
  a recursion; Proof/Payloads.lean, Proof/TripValue.lean and Proof/Accumulate.lean read the payloads at an index and
  sum the sixteen trips; Proof/Final.lean carries the four blocks to the whole array.  Reference side:
  Proof/RefValue.lean chains the reference's operations, read one at a time, into `G`.  The three frames are the
  generated ones (the reference's is its run with the result dropped); the idealization rewrote nothing.
-/
import proofs.«122817_j7713761263781_2_alg».proof.Defs
import proofs.«122817_j7713761263781_2_alg».proof.Proof.Gen.Kernel
import proofs.«122817_j7713761263781_2_alg».proof.Proof.Gen.Kernel.Skeleton
import proofs.«122817_j7713761263781_2_alg».proof.Proof.Gen.Kernel.Loops
import proofs.«122817_j7713761263781_2_alg».proof.Proof.Gen.Kernel.Launch
import proofs.«122817_j7713761263781_2_alg».proof.Proof.Gen.Kernel.Points
import proofs.«122817_j7713761263781_2_alg».proof.Proof.Gen.Kernel.Frame
import proofs.«122817_j7713761263781_2_alg».proof.Proof.Gen.KernelIdeal
import proofs.«122817_j7713761263781_2_alg».proof.Proof.Gen.KernelIdeal.Skeleton
import proofs.«122817_j7713761263781_2_alg».proof.Proof.Gen.KernelIdeal.Loops
import proofs.«122817_j7713761263781_2_alg».proof.Proof.Gen.KernelIdeal.Launch
import proofs.«122817_j7713761263781_2_alg».proof.Proof.Gen.KernelIdeal.Points
import proofs.«122817_j7713761263781_2_alg».proof.Proof.Gen.KernelIdeal.Frame
import proofs.«122817_j7713761263781_2_alg».proof.Proof.Gen.ReferenceIdeal
import proofs.«122817_j7713761263781_2_alg».proof.Proof.Gen.Pre_finite_inputs
import proofs.«122817_j7713761263781_2_alg».proof.Proof.Gen.KernelIdeal.Value
import proofs.«122817_j7713761263781_2_alg».proof.Proof.Gen.ReferenceIdeal.Run
import proofs.«122817_j7713761263781_2_alg».proof.Proof.Gen.ReferenceIdeal.Read
import proofs.«122817_j7713761263781_2_alg».proof.Proof.Spec
import proofs.«122817_j7713761263781_2_alg».proof.Proof.Final
import proofs.«122817_j7713761263781_2_alg».proof.Proof.RefValue
import Idealize.ShloMosaic.Adequacy
import Idealize.ShloMosaic.Init

noncomputable section

namespace Cert.Proof

open Idealize.ShloMosaic Idealize.SL.Sem

/-- The claim: the three frames (generated), the empty idealization ledger, and the two idealized programs ending at
    one function of agreeing arguments — the kernel's run read block by block, the reference's operation by operation. -/
theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, fun m ρ _ =>
    (θ_run Cert.ReferenceIdeal.defs _ _).mono (fun _ h c => (h c).2) (Cert.ReferenceIdeal.Value.run (F := Ideal) m ρ),
    trivial, ?_⟩
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.ref_eq, (hagree c).1, (hagree c).2.2]⟩

end Cert.Proof

end
